-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S524288x3x128 : Shape := ⟨3, ![524288, 3, 128]⟩
abbrev S_ : Shape := ⟨0, ![]⟩

class Facts : Prop where
  bcast_S_S524288x3x128 : S_.BroadcastsInDim S524288x3x128 (![] : Fin 0 → Fin S524288x3x128.rank)
  reducesTo_S524288x3x128_S_d0_1_2 : S524288x3x128.ReducesTo [0, 1, 2] S_
  h_S_ : 0 < S_.numel

variable [Facts]

def fn {F : FTy → Type} [FloatOps F] (main_arg0 : FVec F S524288x3x128 .f32) : IVec S_ 1 :=
  let main_v0 : FVec F S524288x3x128 .f32 := Host.absf main_arg0
  let main_cst : FVec F S_ .f32 := constant S_ .f32 0x7F800000#32
  let main_v1 : FVec F S524288x3x128 .f32 := broadcastInDim S524288x3x128 ![] bcast_S_S524288x3x128 main_cst
  let main_v2 : IVec S524288x3x128 1 := cmpf .olt main_v0 main_v1
  let main_c : IVec S_ 1 := constantI S_ 1 1#1
  let main_v3 : IVec S_ 1 := (fun x v => Host.reduce IntOp.andi x v reducesTo_S524288x3x128_S_d0_1_2 h_S_) main_v2 main_c
  main_v3
-- ==== Kernel.lean ====
abbrev S524288x3x128 : Shape := ⟨3, ![524288, 3, 128]⟩
abbrev S1x1 : Shape := ⟨2, ![1, 1]⟩
abbrev S2048x3x128 : Shape := ⟨3, ![2048, 3, 128]⟩
abbrev S2048x1x128 : Shape := ⟨3, ![2048, 1, 128]⟩
abbrev S2048x128 : Shape := ⟨2, ![2048, 128]⟩
abbrev S2048 : Shape := ⟨1, ![2048]⟩
abbrev S2048x1 : Shape := ⟨2, ![2048, 1]⟩
abbrev S1 : Shape := ⟨1, ![1]⟩
abbrev S_ : Shape := ⟨0, ![]⟩

abbrev nBuf : Space → Nat
  | .hbm => 3
  | .vmem => 4
  | .smem => 0
  | _ => 0

abbrev bufTy : (tb : Table) → Fin (tcTables nBuf tb) → BufTy
  | .hbm, ⟨0, _⟩ => ⟨S524288x3x128, .f32⟩
  | .hbm, ⟨1, _⟩ => ⟨S1x1, .f32⟩
  | .hbm, ⟨2, _⟩ => ⟨S_, .f32⟩
  | .local _ .vmem, ⟨0, _⟩ => ⟨S2048x3x128, .f32⟩
  | .local _ .vmem, ⟨1, _⟩ => ⟨S2048x3x128, .f32⟩
  | .local _ .vmem, ⟨2, _⟩ => ⟨S1x1, .f32⟩
  | .local _ .vmem, ⟨3, _⟩ => ⟨S1x1, .f32⟩
  | _, _ => ⟨S524288x3x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_scratch0 : Ref sig .tc := ⟨.vmem, 3, rfl⟩
abbrev cc0_sem0_0 : DmaSem sig := 0
abbrev cc0_sem0_1 : DmaSem sig := 1
abbrev cc0_sem1_0 : DmaSem sig := 2

abbrev nD : Nat := 1
abbrev τ : Topo := Topo.v7x

variable {F : FTy → Type} [FloatOps F]

abbrev grid0 : Pipeline.Grid := ⟨1, ![256], ![false]⟩

def k0_cond2 (i : grid0.Coords) : BitVec 1 :=
  let arg0 : BitVec 32 := BitVec.ofNat 32 (i 0).val
  let c255_i32 : BitVec 32 := 255#32
  let v44 : BitVec 1 := Scalar.cmpi .eq arg0 c255_i32
  let v45 : BitVec 32 := Scalar.extui v44
  let c0_i32_17 : BitVec 32 := 0#32
  let v46 : BitVec 1 := Scalar.cmpi .ne v45 c0_i32_17
  v46

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2048x3x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

class Facts₀ : Prop where
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S2048x3x128_S2048x1x128_0_0_0 : ∀ a, (![0, 0, 0] : Fin 3 → Nat) a + S2048x1x128.size a ≤ S2048x3x128.size a
  h_S2048x1x128 : 0 < S2048x1x128.numel
  shapeCasts_S2048x1x128_S2048x128 : S2048x1x128.ShapeCasts S2048x128
  inb_S2048x3x128_S2048x1x128_0_1_0 : ∀ a, (![0, 1, 0] : Fin 3 → Nat) a + S2048x1x128.size a ≤ S2048x3x128.size a
  inb_S2048x3x128_S2048x1x128_0_2_0 : ∀ a, (![0, 2, 0] : Fin 3 → Nat) a + S2048x1x128.size a ≤ S2048x3x128.size a
  reduces_S2048x128_S2048 : S2048x128.Reduces [1] S2048
  shapeCasts_S2048_S2048x1 : S2048.ShapeCasts S2048x1
  reduces_S2048x1_S1 : S2048x1.Reduces [0] S1
  shapeCasts_S1_S1x1 : S1.ShapeCasts S1x1
  shapeCasts_S1x1_S_ : S1x1.ShapeCasts S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x3x128.size a ≤ S524288x3x128.size a
  hwx0_0 : ∀ i : grid0.Coords, EltTy.bits .f32 = 32 ∨ (Rect.block (s := S524288x3x128) S2048x3x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x1.size a ≤ S1x1.size a
  hwx0_1 : ∀ i : grid0.Coords, EltTy.bits .f32 = 32 ∨ (Rect.block (s := S1x1) S1x1.size (cc0_transform_1 i) (hinb0_1 i)).WholeWords (EltTy.packing .f32)

variable [Facts₀]

abbrev win0_0 : Pipeline.Window sig grid0 :=
  Pipeline.Window.ofSpec (Memref.whole main_arg0) S2048x3x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x1.size cc0_transform_1 reads0_1 true true 1 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev idle0 : Fin 2 → grid0.Coords → Bool := fun | 0 => fun _ => false | 1 => fun i => !(k0_cond2 i == 1#1) | ⟨_ + 2, h⟩ => absurd h (Nat.not_lt.2 (Nat.le_add_left _ _))

class Facts : Prop extends Facts₀ where

variable [Facts]
-- ==== ReferenceIdeal.lean ====
abbrev S524288x3x128 : Shape := ⟨3, ![524288, 3, 128]⟩
abbrev S524288x1x128 : Shape := ⟨3, ![524288, 1, 128]⟩
abbrev S524288x128 : Shape := ⟨2, ![524288, 128]⟩
abbrev S_ : Shape := ⟨0, ![]⟩
abbrev S524288 : Shape := ⟨1, ![524288]⟩

abbrev nBuf : Space → Nat
  | .hbm => 41
  | .vmem => 0
  | .smem => 0
  | _ => 0

abbrev bufTy : (tb : Table) → Fin (tcTables nBuf tb) → BufTy
  | .hbm, ⟨0, _⟩ => ⟨S524288x3x128, .f32⟩
  | .hbm, ⟨1, _⟩ => ⟨S524288x1x128, .f32⟩
  | .hbm, ⟨2, _⟩ => ⟨S524288x128, .f32⟩
  | .hbm, ⟨3, _⟩ => ⟨S524288x1x128, .f32⟩
  | .hbm, ⟨4, _⟩ => ⟨S524288x128, .f32⟩
  | .hbm, ⟨5, _⟩ => ⟨S524288x1x128, .f32⟩
  | .hbm, ⟨6, _⟩ => ⟨S524288x128, .f32⟩
  | .hbm, ⟨7, _⟩ => ⟨S524288x128, .f32⟩
  | .hbm, ⟨8, _⟩ => ⟨S_, .f32⟩
  | .hbm, ⟨9, _⟩ => ⟨S524288x128, .f32⟩
  | .hbm, ⟨10, _⟩ => ⟨S524288x128, .f32⟩
  | .hbm, ⟨11, _⟩ => ⟨S524288x128, .f32⟩
  | .hbm, ⟨12, _⟩ => ⟨S524288x128, .f32⟩
  | .hbm, ⟨13, _⟩ => ⟨S_, .f32⟩
  | .hbm, ⟨14, _⟩ => ⟨S524288, .f32⟩
  | .hbm, ⟨15, _⟩ => ⟨S524288x128, .f32⟩
  | .hbm, ⟨16, _⟩ => ⟨S524288x128, .f32⟩
  | .hbm, ⟨17, _⟩ => ⟨S_, .f32⟩
  | .hbm, ⟨18, _⟩ => ⟨S524288, .f32⟩
  | .hbm, ⟨19, _⟩ => ⟨S524288, .f32⟩
  | .hbm, ⟨20, _⟩ => ⟨S524288x128, .f32⟩
  | .hbm, ⟨21, _⟩ => ⟨S524288x128, .f32⟩
  | .hbm, ⟨22, _⟩ => ⟨S_, .f32⟩
  | .hbm, ⟨23, _⟩ => ⟨S524288, .f32⟩
  | .hbm, ⟨24, _⟩ => ⟨S524288, .f32⟩
  | .hbm, ⟨25, _⟩ => ⟨S524288x128, .f32⟩
  | .hbm, ⟨26, _⟩ => ⟨S524288x128, .f32⟩
  | .hbm, ⟨27, _⟩ => ⟨S_, .f32⟩
  | .hbm, ⟨28, _⟩ => ⟨S524288, .f32⟩
  | .hbm, ⟨29, _⟩ => ⟨S524288, .f32⟩
  | .hbm, ⟨30, _⟩ => ⟨S524288, .f32⟩
  | .hbm, ⟨31, _⟩ => ⟨S524288, .f32⟩
  | .hbm, ⟨32, _⟩ => ⟨S524288, .f32⟩
  | .hbm, ⟨33, _⟩ => ⟨S_, .f32⟩
  | .hbm, ⟨34, _⟩ => ⟨S524288, .f32⟩
  | .hbm, ⟨35, _⟩ => ⟨S524288, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | _, _ => ⟨S524288x3x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_cst : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_cst_0 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_cst_1 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_cst_2 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_cst_3 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_cst_4 : Ref sig .tc := ⟨.hbm, 33, rfl⟩
abbrev main_v27 : Ref sig .tc := ⟨.hbm, 34, rfl⟩
abbrev main_v28 : Ref sig .tc := ⟨.hbm, 35, rfl⟩
abbrev main_cst_5 : Ref sig .tc := ⟨.hbm, 36, rfl⟩
abbrev main_v29 : Ref sig .tc := ⟨.hbm, 37, rfl⟩
abbrev main_cst_6 : Ref sig .tc := ⟨.hbm, 38, rfl⟩
abbrev main_v30 : Ref sig .tc := ⟨.hbm, 39, rfl⟩
abbrev main_v31 : Ref sig .tc := ⟨.hbm, 40, rfl⟩

abbrev nD : Nat := 1
abbrev τ : Topo := Topo.v7x

variable {F : FTy → Type} [FloatOps F]

class Facts₀ : Prop where
  slices_S524288x3x128_S524288x1x128_0_0_0 : S524288x3x128.Slices ![0, 0, 0] S524288x1x128
  shapeCasts_S524288x1x128_S524288x128 : S524288x1x128.ShapeCasts S524288x128
  slices_S524288x3x128_S524288x1x128_0_1_0 : S524288x3x128.Slices ![0, 1, 0] S524288x1x128
  slices_S524288x3x128_S524288x1x128_0_2_0 : S524288x3x128.Slices ![0, 2, 0] S524288x1x128
  bcast_S_S524288x128 : S_.BroadcastsInDim S524288x128 (![] : Fin 0 → Fin S524288x128.rank)
  reducesTo_S524288x128_S524288_d1 : S524288x128.ReducesTo [1] S524288
  h_S_ : 0 < S_.numel
  bcast_S_S524288 : S_.BroadcastsInDim S524288 (![] : Fin 0 → Fin S524288.rank)
  reducesTo_S524288_S_d0 : S524288.ReducesTo [0] S_

variable [Facts₀]

class Facts : Prop extends Facts₀ where

variable [Facts]
-- ==== Proof.Pieces.lean ====
/-
  What one grid step leaves behind, for any float instance.

  The kernel keeps one number (a 1 × 1 accumulator) across its grid steps. A step computes its block's contribution
  from the three planes of the block it was handed, and stores "accumulator + contribution". At the first step the
  accumulator is first overwritten with the zero word, so what that step leaves is "zero + contribution"; at the last step the
  new accumulator is also copied into the 1 × 1 output block. Each statement below reads the stores a step made
  (one covering store per buffer, the later one winning where there are two) back as a value.
-/
import proofs.«105088_j88510686036863_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Pieces

open Cert.KernelIdeal Cert.KernelIdeal.Gen

variable {F : FTy → Type} [FloatOps F]

theorem zero_offsets : (![0, 0] : Fin 2 → Nat) = fun _ => 0 := funext fun a => by fin_cases a <;> rfl

/-- A block's contribution: the body's arithmetic applied to the three planes (middle coordinate 0, 1, 2) of the block. -/
def blockPart (x0 : Vec F S2048x3x128 .f32) : FVec F S1x1 .f32 :=
  k0_pay3 (View.ld x0 (Rect.unit ![0, 0, 0] ![2048, 1, 128] Facts₀.inb_S2048x3x128_S2048x1x128_0_0_0))
    (View.ld x0 (Rect.unit ![0, 1, 0] ![2048, 1, 128] Facts₀.inb_S2048x3x128_S2048x1x128_0_1_0))
    (View.ld x0 (Rect.unit ![0, 2, 0] ![2048, 1, 128] Facts₀.inb_S2048x3x128_S2048x1x128_0_2_0))

/-- A middle step leaves, in the accumulator that held `acc`, `acc` plus the block's contribution. -/
theorem scratch_middle (c : Dev nD) (i : grid0.Coords) (a1 : Memref sig .tc .vmem S2048x3x128 .f32) (h1 : a1.IsWhole)
    (a2 : Memref sig .tc .vmem S1x1 .f32) (h2 : a2.IsWhole) (a3 : Memref sig .tc .vmem S1x1 .f32) (h3 : a3.IsWhole)
    (hc0 : ¬cond0_0 i) (hc1 : ¬cond0_1 i) (x0 : Vec F S2048x3x128 .f32) (acc : Vec F S1x1 .f32) :
    sout0_B_0 c i a1 h1 a2 h2 a3 h3 hc0 hc1 x0 acc = k0_pay1 (blockPart x0) acc := by
  unfold sout0_B_0
  rw [View.read_writes_eq_canon _ _ _ (scover0_B_0 c i a1 h1 a2 h2 a3 h3 hc0 hc1 x0 acc)]
  unfold kernelRun0_B
  dsimp only
  sl_unfold_words
  rw [View.canon_unit_zero zero_offsets]
  simp only [View.readAt_eq_ld, h1.read_unread, h3.read_unread, View.ld_unit_zero (S := S1x1) zero_offsets]
  rfl

/-- The last step leaves the same in the accumulator … -/
theorem scratch_last (c : Dev nD) (i : grid0.Coords) (a1 : Memref sig .tc .vmem S2048x3x128 .f32) (h1 : a1.IsWhole)
    (a2 : Memref sig .tc .vmem S1x1 .f32) (h2 : a2.IsWhole) (a3 : Memref sig .tc .vmem S1x1 .f32) (h3 : a3.IsWhole)
    (hc0 : ¬cond0_0 i) (hc1 : cond0_1 i) (x0 : Vec F S2048x3x128 .f32) (acc : Vec F S1x1 .f32) :
    sout0_C_0 c i a1 h1 a2 h2 a3 h3 hc0 hc1 x0 acc = k0_pay1 (blockPart x0) acc := by
  unfold sout0_C_0
  rw [View.read_writes_eq_canon _ _ _ (scover0_C_0 c i a1 h1 a2 h2 a3 h3 hc0 hc1 x0 acc)]
  unfold kernelRun0_C
  dsimp only
  sl_unfold_words
  rw [View.canon_unit_zero zero_offsets]
  simp only [View.readAt_eq_ld, h1.read_unread, h3.read_unread, View.ld_unit_zero (S := S1x1) zero_offsets]
  rfl

/-- … and copies it into the output block: the accumulator read back after its store. -/
theorem out_last (c : Dev nD) (i : grid0.Coords) (a1 : Memref sig .tc .vmem S2048x3x128 .f32) (h1 : a1.IsWhole)
    (a2 : Memref sig .tc .vmem S1x1 .f32) (h2 : a2.IsWhole) (a3 : Memref sig .tc .vmem S1x1 .f32) (h3 : a3.IsWhole)
    (hc0 : ¬cond0_0 i) (hc1 : cond0_1 i) (x0 : Vec F S2048x3x128 .f32) (acc : Vec F S1x1 .f32) :
    out0_C_1 c i a1 h1 a2 h2 a3 h3 hc0 hc1 x0 acc = k0_pay1 (blockPart x0) acc := by
  unfold out0_C_1
  rw [View.read_writes_eq_canon _ _ _ (cover0_C_1 c i a1 h1 a2 h2 a3 h3 hc0 hc1 x0 acc)]
  unfold kernelRun0_C
  dsimp only
  sl_unfold_words
  rw [View.canon_unit_zero zero_offsets, View.readCov_unit_zero (S := S1x1) _ zero_offsets]
  simp only [View.readAt_eq_ld, h1.read_unread, h3.read_unread, View.ld_unit_zero (S := S1x1) zero_offsets]
  rfl

/-- The first step overwrites the accumulator with the zero block, reads that back, and leaves zero plus the block's
    contribution. -/
theorem scratch_first (c : Dev nD) (i : grid0.Coords) (a1 : Memref sig .tc .vmem S2048x3x128 .f32) (h1 : a1.IsWhole)
    (a2 : Memref sig .tc .vmem S1x1 .f32) (h2 : a2.IsWhole) (a3 : Memref sig .tc .vmem S1x1 .f32) (h3 : a3.IsWhole)
    (hc0 : cond0_0 i) (hc1 : ¬cond0_1 i) (x0 : Vec F S2048x3x128 .f32) :
    sout0_A_0 c i a1 h1 a2 h2 a3 h3 hc0 hc1 x0 = k0_pay1 (blockPart x0) (k0_pay2 (F := F)) := by
  unfold sout0_A_0
  rw [View.read_writes_eq_canon _ _ _ (scover0_A_0 c i a1 h1 a2 h2 a3 h3 hc0 hc1 x0)]
  unfold kernelRun0_A
  dsimp only
  sl_unfold_words
  rw [View.canon_cons_unit_zero (S := S1x1) zero_offsets, View.readCov_unit_zero (S := S1x1) _ zero_offsets]
  simp only [View.readAt_eq_ld, h1.read_unread]
  rfl

end Cert.KernelIdeal.Pieces

end
-- ==== Proof.Accumulate.lean ====
/-
  The accumulator step by step, for any float instance.

  After step n the kernel's 1 × 1 accumulator holds  ((zero + part₀) + part₁) + … + partₙ, the blocks' contributions
  added in step order — by induction on the step, from what each kind of step (first, middle, last) leaves. The last
  step's copy into the output block is that same value. A block is 2048 consecutive items of the array: entry (r, j, k)
  of step t's block is entry (2048·t + r, j, k) of the array.
-/
import proofs.«105088_j88510686036863_1_alg».proof.Proof.Pieces
import Idealize.ShloMosaic.Lib.ValueIdx

noncomputable section

open Idealize.ShloMosaic Idealize.ShloMosaic.TcCoe Idealize.SL.Sem Idealize.ShloMosaic.ValueIdx

namespace Cert.KernelIdeal.Accumulate

open Cert.KernelIdeal Cert.KernelIdeal.Gen Cert.KernelIdeal.Pieces

variable {F : FTy → Type} [FloatOps F]
variable (m : (ℓ : Loc nD τ sig) → Buf (Elt F) ℓ)

/-- The accumulator after step n: zero plus the contributions of the blocks 0 … n, added in step order. -/
def accAfter (c : Dev nD) : (n : ℕ) → n < cfg0.N → Vec F S1x1 .f32
  | 0, h => k0_pay1 (blockPart (iblk m c 0 ⟨0, h⟩)) (k0_pay2 (F := F))
  | n + 1, h => k0_pay1 (blockPart (iblk m c 0 ⟨n + 1, h⟩)) (accAfter c n (Nat.lt_of_succ_lt h))

/-- What the carried accumulator holds after step n is that chain. -/
theorem scratch_eq (c : Dev nD) : ∀ (n : ℕ) (h : n < cfg0.N), (outsAt0 m c n h).2 = accAfter m c n h
  | 0, h => by
    rw [congrArg Prod.snd (outsAt0_A m c ⟨0, h⟩ (Nat.zero_mod _) (by dsimp only; omega))]
    dsimp only
    rw [scratch_first]
    rfl
  | n + 1, h => by
    have hN : cfg0.N = 256 := N_0
    have h0 : ¬(⟨n + 1, h⟩ : Fin cfg0.N).val % 256 = 0 := by dsimp only; omega
    by_cases h1 : (⟨n + 1, h⟩ : Fin cfg0.N).val % 256 = 255
    · rw [congrArg Prod.snd (outsAt0_C m c ⟨n + 1, h⟩ h0 h1)]
      dsimp only
      rw [scratch_last]
      show k0_pay1 _ (outsAt0 m c n _).2 = k0_pay1 _ (accAfter m c n _)
      rw [scratch_eq c n]
    · rw [congrArg Prod.snd (outsAt0_B m c ⟨n + 1, h⟩ h0 h1)]
      dsimp only
      rw [scratch_middle]
      show k0_pay1 _ (outsAt0 m c n _).2 = k0_pay1 _ (accAfter m c n _)
      rw [scratch_eq c n]

/-- The last step's output block holds the chain after that step. -/
theorem out_eq (c : Dev nD) (t : Fin cfg0.N) (h1 : t.val % 256 = 255) :
    (outsAt0 m c t.val t.isLt).1 = accAfter m c t.val t.isLt := by
  have hN : cfg0.N = 256 := N_0
  obtain ⟨n, h⟩ := t
  cases n with
  | zero => exact absurd h1 (by dsimp only; omega)
  | succ n =>
    have h0 : ¬(⟨n + 1, h⟩ : Fin cfg0.N).val % 256 = 0 := by dsimp only at h1 ⊢; omega
    rw [congrArg Prod.fst (outsAt0_C m c ⟨n + 1, h⟩ h0 h1)]
    dsimp only
    rw [out_last]
    show k0_pay1 _ (outsAt0 m c n _).2 = k0_pay1 _ (accAfter m c n _)
    rw [scratch_eq m c n]

/-- The window's printed index map, decided over the grid: step t's block starts at item block t, plane 0, lane 0. -/
theorem block_index : ∀ t : Fin cfg0.N, win0_0.index t (0 : Fin 3) = t.val ∧ win0_0.index t (1 : Fin 3) = 0
    ∧ win0_0.index t (2 : Fin 3) = 0 :=
  (by decide +kernel : ∀ t : Fin grid0.N, _)

/-- Entry (r, j, k) of step t's block is entry (2048·t + r, j, k) of the array as the region finds it. -/
theorem iblk_apply (c : Dev nD) (t : Fin cfg0.N) (r : Fin 2048) (j : Fin 3) (k : Fin 128) (b : Fin 524288)
    (hb : b.val = t.val * 2048 + r.val) :
    (iblk m c 0 t : Vec F S2048x3x128 .f32) (ix3 r j k) = V m c main_arg0 (ix3 b j k) := by
  obtain ⟨e0, e1, e2⟩ := block_index t
  unfold iblk
  rw [View.read_apply]
  show V m c main_arg0 _ = V m c main_arg0 _
  refine congrArg (V m c main_arg0) (funext fun a => Fin.ext ?_)
  match a with
  | ⟨0, _⟩ => show win0_0.index t (0 : Fin 3) * 2048 + 1 * r.val = b.val; rw [e0, hb]; omega
  | ⟨1, _⟩ => show win0_0.index t (1 : Fin 3) * 3 + 1 * j.val = j.val; rw [e1]; omega
  | ⟨2, _⟩ => show win0_0.index t (2 : Fin 3) * 128 + 1 * k.val = k.val; rw [e2]; omega

end Cert.KernelIdeal.Accumulate

end
-- ==== Proof.KernelRun.lean ====
/-
  The kernel's run, read: what its result holds after every weakly fair execution, for any float instance.

  Only the last grid step writes the 1 × 1 output block back, and that block is the whole output array; so the array ends
  holding the accumulator after the last step. The host then views the 1 × 1 array as a scalar, which is the result.
-/
import proofs.«105088_j88510686036863_1_alg».proof.Proof.Accumulate
import Idealize.ShloMosaic.Lib.Pipeline.Value
import Idealize.ShloMosaic.Lib.StableHlo.Run

noncomputable section

open Idealize.ShloMosaic Idealize.ShloMosaic.TcCoe Idealize.SL.Sem
open Idealize.ShloMosaic.Pipeline (Dat)

namespace Cert.KernelIdeal.KernelRun

open Cert.KernelIdeal Cert.KernelIdeal.Gen Cert.KernelIdeal.Accumulate

variable {F : FTy → Type} [FloatOps F]
variable (m : (ℓ : Loc nD τ sig) → Buf (Elt F) ℓ) (ρ : Dev nD → PrngReg)

/-- The last grid step. -/
abbrev lastStep : Fin cfg0.N := ⟨255, by decide⟩

/-- The accumulator after the last step, as contents of the output array (its one block is the array). -/
abbrev lastAcc (c : Dev nD) : Buf (Elt F) ((c : Thread nD τ).loc main_v0) := accAfter m c lastStep.val lastStep.isLt

/-- The one write-back, at the last step, writes it. -/
theorem flushed_eq (c : Dev nD) (t : Fin cfg0.N) (hf : (cfg0.win 1).flush t = true) :
    (dats m 0 c).flushed 1 t = ((cfg0.win 1).blk t).view.read (Elt F) (lastAcc m c) := by
  have hN : cfg0.N = 256 := N_0
  have h255 : t.val = 255 := by have := (flush0_1 t).mp hf; have := t.isLt; omega
  obtain rfl : t = lastStep := Fin.ext h255
  show (cfg0.win 1).cut (grid0.coords lastStep) ((dats m 0 c).after 1 lastStep) = _
  rw [after0_1, out_eq m c lastStep rfl]
  have hz' : (fun a => win0_1.index lastStep a * main_v0.ty.shape.size a) = fun _ => 0 := funext fun a => by fin_cases a <;> decide
  exact (Memref.read_access_unit_zero (Elt F) main_v0 hz' (fun a => by rw [congrFun hz' a]; simp) (lastAcc m c)).symm

/-- So the output array ends holding the accumulator after the last step. -/
theorem final_out (c : Dev nD) : (dats m 0 c).arrAt 1 cfg0.N = lastAcc m c :=
  (dats m 0 c).arrAt_eq_of_cover 1 (lastAcc m c) (flushed_eq m c) fun i =>
    ⟨lastStep, (flush0_1 lastStep).mpr rfl, by
      show i ∈ ((View.whole main_v0).slice (win0_1.rect lastStep)).set
      rw [View.set_slice_whole, Rect.mem_set_unit]
      intro a
      have h0 : (i 0 : Nat) < 1 := (i 0).isLt
      have h1 : (i 1 : Nat) < 1 := (i 1).isLt
      match a with
      | ⟨0, _⟩ => show win0_1.index lastStep 0 * win0_1.size 0 ≤ (i 0 : Nat) ∧ (i 0 : Nat) < win0_1.index lastStep 0 * win0_1.size 0 + win0_1.xsize (grid0.coords lastStep) 0
                  rw [show win0_1.index lastStep 0 * win0_1.size 0 = 0 from by decide +kernel, show win0_1.xsize (grid0.coords lastStep) 0 = 1 from by decide +kernel]; omega
      | ⟨1, _⟩ => show win0_1.index lastStep 1 * win0_1.size 1 ≤ (i 1 : Nat) ∧ (i 1 : Nat) < win0_1.index lastStep 1 * win0_1.size 1 + win0_1.xsize (grid0.coords lastStep) 1
                  rw [show win0_1.index lastStep 1 * win0_1.size 1 = 0 from by decide +kernel, show win0_1.xsize (grid0.coords lastStep) 1 = 1 from by decide +kernel]; omega⟩

/-- The host's view of the output array as a scalar, after the region. -/
theorem tail_eq (c : Dev nD) :
    Pipeline.afterTail₀ cfgs (dats m) 0 (V0 m) [hostOps1] c main_v1
      = shapeCast S_ (lastAcc m c) Facts₀.shapeCasts_S1x1_S_ := by
  unfold Pipeline.afterTail₀
  show StableHlo.after hostOps1 _ (Proc.devRef .tc main_v1) = _
  after_results
  have e : Pipeline.withArrays (cfgs 0).spec c (V0 m c) (fun w => (dats m 0 c).arrAt w (cfgs 0).N) (Proc.tc.devRef main_v0)
      = lastAcc m c :=
    (Pipeline.withArrays_arr spec0 launch0.win.arr_inj c _ _ 1).trans (final_out m c)
  rw [e]
  rfl

/-- The run, read: the scalar result is the accumulator after the last step, viewed as a scalar; the argument is unchanged. -/
theorem run : θ_run defs (onTc (τ := τ) (main (F := F))) ⟨m, fun _ => 0, ρ⟩ fun r => ∀ c : Dev nD,
      r.2.mem ((c : Thread nD τ).loc main_v1) = shapeCast S_ (lastAcc m c) Facts₀.shapeCasts_S1x1_S_
      ∧ r.2.mem ((c : Thread nD τ).loc main_arg0) = m ((c : Thread nD τ).loc main_arg0) :=
  (θ_run defs _ _).mono (fun _ h c =>
      ⟨((h c).2 main_v1 (Pipeline.mem_restRefs_of main_v1 rfl (by decide))).trans (tail_eq m c),
        ((h c).1 0).trans (((dats m 0 c).arrAt_in 0 rfl _).trans ((A_eq m c 0).trans (V_main_arg0 m c)))⟩)
    (run_main m ρ)

end Cert.KernelIdeal.KernelRun

end
-- ==== Proof.LibBlockedSum.lean ====
/-
  A sum over an index range cut into equal consecutive blocks.

  A matrix product whose contraction axis of length `n * b` is walked block by block — `n` blocks of
  `b` consecutive indices, each block's partial product added into an accumulator that starts at zero —
  ends with the whole contraction: in a commutative additive monoid the order and grouping of a finite
  sum do not matter, so nothing about the summands (finiteness, sign) is needed. On the extended reals
  this is what lets a product accumulated over a grid axis meet one whole product.
-/
import Mathlib.Algebra.BigOperators.Fin
import Mathlib.Algebra.BigOperators.Intervals

namespace BlockedSum

variable {M : Type*} [AddCommMonoid M]

/-- Summing `f` over the first `n * b` naturals is summing, block by block, over the `n` consecutive
    blocks of length `b`: block `r` holds the indices `r * b + k`, `k < b`. -/
theorem sum_range_mul (n b : ℕ) (f : ℕ → M) :
    ∑ K ∈ Finset.range (n * b), f K = ∑ r ∈ Finset.range n, ∑ k ∈ Finset.range b, f (r * b + k) := by
  induction n with
  | zero => simp
  | succ n ih =>
    rw [Nat.succ_mul, Finset.sum_range_add, ih, Finset.sum_range_succ]

/-- The same over `Fin`: a sum over `Fin (n * b)` of a function of the index's value is the double sum
    over the block number and the position inside the block. -/
theorem sum_fin_mul (n b : ℕ) (f : ℕ → M) :
    ∑ K : Fin (n * b), f K.val = ∑ r : Fin n, ∑ k : Fin b, f (r.val * b + k.val) := by
  rw [← Finset.sum_range (fun K => f K), sum_range_mul, Finset.sum_range]
  exact Finset.sum_congr rfl fun r _ => Finset.sum_range (fun k => f (r.val * b + k))

/-- An accumulator that starts at zero and receives one term per step holds, after `n` steps, the sum of
    the first `n` terms. -/
theorem acc_eq_sum (acc term : ℕ → M) (h0 : acc 0 = 0) (hstep : ∀ r, acc (r + 1) = acc r + term r) (n : ℕ) :
    acc n = ∑ r ∈ Finset.range n, term r := by
  induction n with
  | zero => simpa using h0
  | succ n ih => rw [hstep, ih, Finset.sum_range_succ]

/-- A contraction accumulated block by block is the whole contraction: if the accumulator starts at zero and
    step `r` adds block `r`'s partial sum `∑ k < b, f (r * b + k)`, then after `n` steps it holds
    `∑ K < n * b, f K`. -/
theorem acc_blocks_eq_sum (acc : ℕ → M) (f : ℕ → M) (b : ℕ) (h0 : acc 0 = 0)
    (hstep : ∀ r, acc (r + 1) = acc r + ∑ k ∈ Finset.range b, f (r * b + k)) (n : ℕ) :
    acc n = ∑ K ∈ Finset.range (n * b), f K := by
  rw [sum_range_mul]
  exact acc_eq_sum acc (fun r => ∑ k ∈ Finset.range b, f (r * b + k)) h0 hstep n

/-- The successor's remainder: when `n + 1` is not a multiple of `b`, its remainder is `n`'s plus one, and both have
    the same sweep start. -/
theorem succ_mod_of_ne_zero (b n : ℕ) (h : (n + 1) % b ≠ 0) :
    (n + 1) % b = n % b + 1 ∧ n + 1 - (n % b + 1) = n - n % b := by
  have hle : n % b ≤ n := Nat.mod_le n b
  refine ⟨?_, by omega⟩
  rcases Nat.eq_zero_or_pos b with hb | hb
  · subst hb; simp [Nat.mod_zero]
  · have hr : n % b < b := Nat.mod_lt n hb
    have hdecomp : n + 1 = b * (n / b) + (n % b + 1) := by
      have := Nat.div_add_mod n b
      omega
    rcases Nat.lt_or_ge (n % b + 1) b with hlt | hge
    · conv_lhs => rw [hdecomp]
      rw [Nat.mul_add_mod, Nat.mod_eq_of_lt hlt]
    · exfalso
      apply h
      have hb1 : n % b + 1 = b := by omega
      rw [hdecomp, hb1, Nat.mul_add_mod, Nat.mod_self]

/-- An accumulator over grid points swept in runs of `b`: reset to the point's term where a sweep begins
    (`n % b = 0`), the point's term added to what the point before left elsewhere. After point `n` it holds the sum of
    the terms of `n`'s sweep up to `n`. -/
theorem sweep_closed (b : ℕ) (acc term : ℕ → M)
    (hfirst : ∀ n, n % b = 0 → acc n = term n)
    (hnext : ∀ n, (n + 1) % b ≠ 0 → acc (n + 1) = acc n + term (n + 1)) (n : ℕ) :
    acc n = ∑ j ∈ Finset.range (n % b + 1), term (n - n % b + j) := by
  induction n with
  | zero => simp [hfirst 0 (Nat.zero_mod b)]
  | succ n ih =>
    by_cases h0 : (n + 1) % b = 0
    · rw [hfirst _ h0, h0]; simp
    · obtain ⟨e1, e2⟩ := succ_mod_of_ne_zero b n h0
      rw [hnext n h0, ih, e1, e2, Finset.sum_range_succ _ (n % b + 1)]
      congr 2
      have := Nat.mod_le n b
      omega

end BlockedSum
-- ==== Proof.Spec.lean ====
/-
  Triples of points (v₁, v₂, v₃) of a d-dimensional space, one triple per item, laid out as an array [n, 3, d]
  over the extended reals. An item's loss is

      Σₖ (v₂ₖ − (v₁ₖ + v₃ₖ)·½)²  +  w · (‖v₁ − v₂‖ + ‖v₂ − v₃‖ + ‖v₁ − v₃‖)²,

  the squared distance of v₂ from the midpoint of v₁ and v₃ plus a fixed weight w times the squared perimeter of the
  triangle, each norm the square root of a sum of squares; the total loss is the sum of the items' losses.

  Two ways of adding the items up meet here. One adds the first summands of all items, then the second summands
  of all items, and adds the two totals. The other walks the items in consecutive blocks of equal length, adds up each
  block's whole items, and feeds one block's sum per step into an accumulator that starts from nothing. Addition on
  the extended reals is commutative and associative (with ⊤ + ⊥ = ⊥ it is still a commutative monoid), so both are
  the plain sum over the items: no finiteness of the entries is used.
-/
import Idealize.ShloMosaic.PureOps.Ideal
import Idealize.ShloMosaic.Lib.ValueIdx
import proofs.«105088_j88510686036863_1_alg».proof.Proof.LibBlockedSum

noncomputable section

namespace Cert.TripleLoss

open Idealize.ShloMosaic Idealize.ShloMosaic.ValueIdx

/-- One half, as both programs spell it: the binary32 word of 0.5. -/
abbrev half : EReal := Ideal.ofBits .f32 0x3F000000#32
/-- The weight of the perimeter term, as both programs spell it: the binary32 word nearest 0.05. -/
abbrev weight : EReal := Ideal.ofBits .f32 0x3D4CCCCD#32

variable {d : ℕ}

/-- The squared distance of two points: the sum of the squared coordinate differences. -/
def sqDist (u v : Fin d → EReal) : EReal := ∑ k, (u k - v k) * (u k - v k)

/-- The squared distance of `b` from the midpoint of `a` and `c`. -/
def midDev (a b c : Fin d → EReal) : EReal := ∑ k, (b k - (a k + c k) * half) * (b k - (a k + c k) * half)

/-- The triangle's perimeter: the three side lengths, added in the order (ab + bc) + ac. -/
def perim (a b c : Fin d → EReal) : EReal :=
  (Ideal.sqrt (sqDist a b) + Ideal.sqrt (sqDist b c)) + Ideal.sqrt (sqDist a c)

/-- The weighted squared perimeter. -/
def spread (a b c : Fin d → EReal) : EReal := weight * (perim a b c * perim a b c)

/-- One item's loss. -/
def item (a b c : Fin d → EReal) : EReal := midDev a b c + spread a b c

variable {n : ℕ}

/-- Point `j` of item `b` of the array. -/
def pt (x : (⟨3, ![n, 3, d]⟩ : Shape).Idx → EReal) (b : Fin n) (j : Fin 3) : Fin d → EReal := fun k => x (ix3 b j k)

/-- Item `b`'s loss, read off the array. -/
def itemAt (x : (⟨3, ![n, 3, d]⟩ : Shape).Idx → EReal) (b : Fin n) : EReal := item (pt x b 0) (pt x b 1) (pt x b 2)

/-- The total loss, the two kinds of summand totalled apart and then added. -/
def total (x : (⟨3, ![n, 3, d]⟩ : Shape).Idx → EReal) : EReal :=
  (∑ b : Fin n, midDev (pt x b 0) (pt x b 1) (pt x b 2)) + ∑ b : Fin n, spread (pt x b 0) (pt x b 1) (pt x b 2)

/-- Totalling the two kinds of summand apart is summing the items. -/
theorem total_eq_sum_items (x : (⟨3, ![n, 3, d]⟩ : Shape).Idx → EReal) : total x = ∑ b : Fin n, itemAt x b :=
  Finset.sum_add_distrib.symm

/-- Item number `K` of the array, as a function of a natural number (nothing beyond the last item). -/
def itemNat (x : (⟨3, ![n, 3, d]⟩ : Shape).Idx → EReal) (K : ℕ) : EReal := if h : K < n then itemAt x ⟨K, h⟩ else 0

theorem itemNat_of_lt (x : (⟨3, ![n, 3, d]⟩ : Shape).Idx → EReal) (K : ℕ) (h : K < n) : itemNat x K = itemAt x ⟨K, h⟩ :=
  dif_pos h

/-- The sum of the whole items of block `t`, the blocks `len` consecutive items each. -/
def blockSum (len : ℕ) (x : (⟨3, ![n, 3, d]⟩ : Shape).Idx → EReal) (t : ℕ) : EReal :=
  ∑ r : Fin len, itemNat x (t * len + r.val)

/-- An accumulator fed one block's sum per step holds, after the last of `cnt` blocks of `len` items, the total loss of
    an array of `cnt * len` items. -/
theorem sum_blocks_eq_total (cnt len : ℕ) (hn : cnt * len = n) (x : (⟨3, ![n, 3, d]⟩ : Shape).Idx → EReal) :
    ∑ t ∈ Finset.range cnt, blockSum len x t = total x := by
  subst hn
  rw [total_eq_sum_items, Finset.sum_range]
  unfold blockSum
  rw [← BlockedSum.sum_fin_mul cnt len (itemNat x)]
  exact Finset.sum_congr rfl fun K _ => itemNat_of_lt x K.val K.isLt

end Cert.TripleLoss

end
-- ==== Proof.LibPlaneReads.lean ====
/- Reads at an index for arrays with a short middle axis, and sums along the FIRST axis, for any extents; names no program.
   The sum along the first axis of a two-axis array [a, b], read at column q over the extended reals, is the plain sum over the
   rows of entry (r, q). An array [a, 1, b] viewed as [a, b] reads, at (p, k), its entry (p, 0, k). A unit-stride load of plane q
   of the middle axis of an array [a, m, b] — the box of extents [a, 1, b] at offsets [0, q, 0] — reads, at (p, 0, k), the array's
   entry (p, q, k). A sum over the index type of a one-axis shape [n] is the sum over the n coordinates; a [1, 1] array viewed as
   a scalar reads its entry (0, 0), and (0, 0) is the only index of a [1, 1] array. -/
import Idealize.ShloMosaic.PureOps.Ideal
import Idealize.ShloMosaic.PureOps.Ideal.Laws
import Idealize.ShloMosaic.Lib.Pipeline.Value
import Idealize.ShloMosaic.Lib.Pipeline.FrameBody
import Idealize.ShloMosaic.Lib.ValueIdx

noncomputable section

namespace Cert.LibPlaneReads

open Idealize.ShloMosaic Idealize.ShloMosaic.ValueIdx

variable {a b : ℕ}

/-- Result index q of a reduction along the first axis, with the dropped coordinate r put back, is (r, q). -/
theorem lift_col (h : (⟨2, ![a, b]⟩ : Shape).Reduces [(0 : Fin 2)] ⟨1, ![b]⟩) (q : Fin b) (r : Fin a) :
    h.lift (ix1 q) r = ix2 r q := by
  funext c
  apply Fin.ext
  match c with
  | ⟨0, _⟩ => rfl
  | ⟨1, _⟩ => rfl

/-- The sum along the first axis of an f32 array from the zero word, at column q: the plain sum down the column. The side
    condition on the initial word is spelt as an equation between the two literal words. -/
theorem colSum_f32 (src : FVec Ideal ⟨2, ![a, b]⟩ .f32)
    (h : (⟨2, ![a, b]⟩ : Shape).Reduces [(0 : Fin 2)] ⟨1, ![b]⟩) (hφ : FKind.Formats .f32)
    (hacc : (0x00000000#32 : BitVec 32) = 0x00000000#32) (q : Fin b) :
    multiReduction .add [(0 : Fin 2)] ⟨1, ![b]⟩ src 0x00000000#32 h hφ hacc (ix1 q) = ∑ r : Fin a, src (ix2 r q) :=
  (Ideal.multiReduction_add_single src 0x00000000#32 h hφ hacc (ix1 q)).trans
    (Finset.sum_congr rfl fun r _ => congrArg src (lift_col h q r))

variable {α : Type}

/-- An array [a, 1, b] cast to [a, b] reads, at (p, k), its entry (p, 0, k). -/
theorem shapeCast_a1b_ab_apply (x : (⟨3, ![a, 1, b]⟩ : Shape).Idx → α)
    (h : (⟨3, ![a, 1, b]⟩ : Shape).ShapeCasts ⟨2, ![a, b]⟩) (p : Fin a) (k : Fin b) :
    shapeCast ⟨2, ![a, b]⟩ x h (ix2 p k) = x (ix3 p (0 : Fin 1) k) :=
  shapeCast_apply x h _ _ (by
    rw [Shape.rowMajor_val_three, Shape.rowMajor_val_two]
    show (p.val * 1 + 0) * b + k.val = p.val * b + k.val
    rw [Nat.mul_one, Nat.add_zero])

/-- A unit-stride load of plane q of the middle axis of an array [a, m, b] reads, at (p, 0, k), the array's entry (p, q, k). -/
theorem ld_plane_apply {Val : EltTy → Type} {e : EltTy} {m : ℕ} (X : (⟨3, ![a, m, b]⟩ : Shape).Idx → Val e) (q : Fin m)
    (off : Fin 3 → ℕ) (hoff : off = ![0, q.val, 0])
    (inb : ∀ ax, off ax + (![a, 1, b] : Fin 3 → ℕ) ax ≤ (⟨3, ![a, m, b]⟩ : Shape).size ax) (p : Fin a) (k : Fin b) :
    View.ld X (Rect.unit off ![a, 1, b] inb) (ix3 p (0 : Fin 1) k) = X (ix3 p q k) := by
  subst hoff
  show X _ = X _
  refine congrArg X (funext fun ax => Fin.ext ?_)
  match ax with
  | ⟨0, _⟩ => show 0 + 1 * p.val = p.val; omega
  | ⟨1, _⟩ => show q.val + 1 * 0 = q.val; omega
  | ⟨2, _⟩ => show 0 + 1 * k.val = k.val; omega

/-- A one-axis index set is its coordinate's range … -/
def idxEquiv1 {n : ℕ} : (⟨1, ![n]⟩ : Shape).Idx ≃ Fin n where
  toFun i := i 0
  invFun p := ix1 p
  left_inv i := (eq_ix1 i).symm
  right_inv _ := rfl

/-- … so a sum over it is the sum over the coordinate. -/
theorem sum_idx1 {M : Type*} [AddCommMonoid M] {n : ℕ} (f : (⟨1, ![n]⟩ : Shape).Idx → M) :
    ∑ i, f i = ∑ p : Fin n, f (ix1 p) := by
  rw [← Equiv.sum_comp (idxEquiv1 (n := n)).symm f]
  rfl

/-- A [1, 1] array viewed as a scalar reads its one entry. -/
theorem shapeCast_11_scalar_apply (x : (⟨2, ![1, 1]⟩ : Shape).Idx → α)
    (h : (⟨2, ![1, 1]⟩ : Shape).ShapeCasts ⟨0, ![]⟩) (j : (⟨0, ![]⟩ : Shape).Idx) :
    shapeCast ⟨0, ![]⟩ x h j = x (ix2 (0 : Fin 1) (0 : Fin 1)) :=
  shapeCast_apply x h j _ (by
    have hn : (⟨0, ![]⟩ : Shape).numel = 1 := Shape.numel_eq_one fun a => a.elim0
    have hlt : ((⟨0, ![]⟩ : Shape).rowMajor j).val < 1 := Nat.lt_of_lt_of_eq ((⟨0, ![]⟩ : Shape).rowMajor j).isLt hn
    rw [Shape.rowMajor_val_two]
    show 0 * 1 + 0 = _
    omega)

/-- The one index of a [1, 1] array. -/
theorem eq_ix2_zero (j : (⟨2, ![1, 1]⟩ : Shape).Idx) : j = ix2 (0 : Fin 1) (0 : Fin 1) := by
  have h0 : (j 0).val < 1 := (j 0).isLt
  have h1 : (j 1).val < 1 := (j 1).isLt
  funext c
  apply Fin.ext
  match c with
  | ⟨0, _⟩ => show (j 0).val = 0; omega
  | ⟨1, _⟩ => show (j 1).val = 0; omega

end Cert.LibPlaneReads

end
-- ==== Proof.LibColumn.lean ====
/-
  Columns and rows of small shapes read at an index.

  A column `[a, 1]` stretched along its unit axis to `[a, b]` reads, at `(p, c)`, its entry `(p, 0)`; a row
  `[1, b]` stretched to `[a, b]` reads its entry `(0, c)`; a vector `[a]` set up as a column `[a, 1]` (by a cast, or by
  a broadcast that names its one axis) or as a row `[1, a]` reads its entry `p`; a scalar stretched to any shape reads
  its one entry.  These are the host's `broadcast_in_dim` and the vector unit's `broadcast` / `shape_cast` in the
  forms a "keep the axis" reduction or a bias produces.
-/
import Idealize.ShloMosaic.Lib.Pipeline.Value
import Idealize.ShloMosaic.Lib.ValueIdx
import Idealize.ShloMosaic.Lib.ValueLayout

namespace Cert.LibColumn

open Idealize.ShloMosaic Idealize.ShloMosaic.ValueIdx

variable {α : Type}

/-- A column `[a, 1]` broadcast (vector unit) to `[a, b]` reads, at `(p, c)`, the column's entry `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A column `[a, 1]` broadcast (host) along axes `[0, 1]` to `[a, b]` reads, at `(p, c)`, the column's entry `p`. -/
theorem bcastInDim_a1_ab_apply {a b : ℕ} (v : (⟨2, ![a, 1]⟩ : Shape).Idx → α)
    (h : (⟨2, ![a, 1]⟩ : Shape).BroadcastsInDim ⟨2, ![a, b]⟩ ![0, 1]) (p : Fin a) (c : Fin b) :
    broadcastInDim ⟨2, ![a, b]⟩ ![0, 1] h v (ix2 p c) = v (ix2 p (0 : Fin 1)) := by
  refine broadcastInDim_apply ![0, 1] h v (ix2 p c) (ix2 p (0 : Fin 1)) fun ax => ?_
  match ax with
  | ⟨0, _⟩ =>
    show p.val = if a = 1 then 0 else p.val
    split
    · have := p.isLt; omega
    · rfl
  | ⟨1, _⟩ => rfl

/-- A row `[1, b]` broadcast (host) along axes `[0, 1]` to `[a, b]` reads, at `(p, c)`, the row's entry `c`. -/
theorem bcastInDim_1b_ab_apply {a b : ℕ} (v : (⟨2, ![1, b]⟩ : Shape).Idx → α)
    (h : (⟨2, ![1, b]⟩ : Shape).BroadcastsInDim ⟨2, ![a, b]⟩ ![0, 1]) (p : Fin a) (c : Fin b) :
    broadcastInDim ⟨2, ![a, b]⟩ ![0, 1] h v (ix2 p c) = v (ix2 (0 : Fin 1) c) := by
  refine broadcastInDim_apply ![0, 1] h v (ix2 p c) (ix2 (0 : Fin 1) c) fun ax => ?_
  match ax with
  | ⟨0, _⟩ => rfl
  | ⟨1, _⟩ =>
    show c.val = if b = 1 then 0 else c.val
    split
    · have := c.isLt; omega
    · rfl

/-- A vector `[b]` broadcast (host) along axis `[1]` to a row `[1, b]` reads, at `(u, c)`, the vector's entry `c`. -/
theorem bcastInDim_b_1b_apply {b : ℕ} (v : (⟨1, ![b]⟩ : Shape).Idx → α)
    (h : (⟨1, ![b]⟩ : Shape).BroadcastsInDim ⟨2, ![1, b]⟩ ![1]) (u : Fin 1) (c : Fin b) :
    broadcastInDim ⟨2, ![1, b]⟩ ![1] h v (ix2 u c) = v (ix1 c) := by
  refine broadcastInDim_apply ![1] h v (ix2 u c) (ix1 c) fun ax => ?_
  match ax with
  | ⟨0, _⟩ =>
    show c.val = if b = 1 then 0 else c.val
    split
    · have := c.isLt; omega
    · rfl

/-- A vector `[a]` broadcast (host) along axis `[0]` to a column `[a, 1]` reads, at `(p, u)`, the vector's entry `p`. -/
theorem bcastInDim_a_a1_apply {a : ℕ} (v : (⟨1, ![a]⟩ : Shape).Idx → α)
    (h : (⟨1, ![a]⟩ : Shape).BroadcastsInDim ⟨2, ![a, 1]⟩ ![0]) (p : Fin a) (u : Fin 1) :
    broadcastInDim ⟨2, ![a, 1]⟩ ![0] h v (ix2 p u) = v (ix1 p) := by
  refine broadcastInDim_apply ![0] h v (ix2 p u) (ix1 p) fun ax => ?_
  match ax with
  | ⟨0, _⟩ =>
    show p.val = if a = 1 then 0 else p.val
    split
    · have := p.isLt; omega
    · rfl

/-- A vector `[a]` cast to a column `[a, 1]` reads, at `(p, u)`, the vector's entry `p`. -/
theorem shapeCast_a_a1_apply {a : ℕ} (v : (⟨1, ![a]⟩ : Shape).Idx → α)
    (h : (⟨1, ![a]⟩ : Shape).ShapeCasts ⟨2, ![a, 1]⟩) (p : Fin a) (u : Fin 1) :
    shapeCast ⟨2, ![a, 1]⟩ v h (ix2 p u) = v (ix1 p) :=
  shapeCast_apply v h _ _ (by
    have hu : u.val = 0 := by omega
    rw [Shape.rowMajor_val_two, Shape.rowMajor_val_one]
    show p.val = p.val * 1 + u.val
    rw [hu]; omega)

/-- So the cast of a vector to a column and its broadcast to a column are one array. -/
theorem shapeCast_a_a1_eq_bcastInDim {a : ℕ} (v : (⟨1, ![a]⟩ : Shape).Idx → α)
    (h : (⟨1, ![a]⟩ : Shape).ShapeCasts ⟨2, ![a, 1]⟩) (h' : (⟨1, ![a]⟩ : Shape).BroadcastsInDim ⟨2, ![a, 1]⟩ ![0]) :
    shapeCast ⟨2, ![a, 1]⟩ v h = broadcastInDim ⟨2, ![a, 1]⟩ ![0] h' v := by
  funext j
  obtain ⟨p, u, rfl⟩ : ∃ (p : Fin a) (u : Fin 1), j = ix2 p u := ⟨j 0, j 1, eq_ix2 j⟩
  rw [shapeCast_a_a1_apply, bcastInDim_a_a1_apply]

/-- A scalar broadcast (host) to any shape reads its one entry everywhere. -/
theorem bcastInDim_scalar_apply {t : Shape} (v : (⟨0, ![]⟩ : Shape).Idx → α)
    (h : (⟨0, ![]⟩ : Shape).BroadcastsInDim t (![] : Fin 0 → Fin t.rank)) (j : t.Idx) (k : (⟨0, ![]⟩ : Shape).Idx) :
    broadcastInDim t ![] h v j = v k :=
  broadcastInDim_apply ![] h v j k fun ax => ax.elim0

end Cert.LibColumn
-- ==== Proof.LibRowReduce.lean ====
/- Row reductions of a two-axis array kept as a column and repeated along the rows, read at an index over the extended reals:
   the lane sum of row p is the plain sum over the row, the lane maximum the fold of max over the row from the initial word; a
   length-a vector cast to an a × 1 column and broadcast to a × b reads, at (p, q), the vector's entry p; a 1 × 1 array broadcast
   to a × b reads its one entry everywhere. Names no program. -/
import proofs.«105088_j88510686036863_1_alg».proof.Proof.LibColumn
import Idealize.ShloMosaic.PureOps.Ideal
import Idealize.ShloMosaic.PureOps.Ideal.Laws
import Idealize.ShloMosaic.Lib.Pipeline.Value
import Idealize.ShloMosaic.Lib.ValueIdx
import Idealize.ShloMosaic.Lib.ValueLayout

noncomputable section

namespace Cert.LibRowReduce

open Idealize.ShloMosaic Idealize.ShloMosaic.ValueIdx

variable {a b : ℕ}

/-- Result index p of a reduction along the second axis, with the dropped coordinate k put back, is (p, k). -/
theorem lift_row (h : (⟨2, ![a, b]⟩ : Shape).Reduces [(1 : Fin 2)] ⟨1, ![a]⟩) (p : Fin a) (k : Fin b) :
    h.lift (ix1 p) k = ix2 p k := by
  funext c
  apply Fin.ext
  match c with
  | ⟨0, _⟩ => rfl
  | ⟨1, _⟩ => rfl

/-- The lane sum of row p. -/
theorem rowSum_apply {φ : FTy} (src : FVec Ideal ⟨2, ![a, b]⟩ φ) (acc : BitVec φ.bits)
    (h : (⟨2, ![a, b]⟩ : Shape).Reduces [(1 : Fin 2)] ⟨1, ![a]⟩) (hφ : FKind.Formats φ) (hacc : acc = FKind.add.neutral φ hφ) (p : Fin a) :
    multiReduction .add [(1 : Fin 2)] ⟨1, ![a]⟩ src acc h hφ hacc (ix1 p) = ∑ k : Fin b, src (ix2 p k) :=
  (Ideal.multiReduction_add_single src acc h hφ hacc (ix1 p)).trans
    (Finset.sum_congr rfl fun k _ => congrArg src (lift_row h p k))

/-- The lane maximum of row p: max folded over the row from the initial word. -/
theorem rowMax_apply {φ : FTy} (src : FVec Ideal ⟨2, ![a, b]⟩ φ) (acc : BitVec φ.bits)
    (h : (⟨2, ![a, b]⟩ : Shape).Reduces [(1 : Fin 2)] ⟨1, ![a]⟩) (hφ : FKind.Formats φ) (hacc : acc = FKind.maximumf.neutral φ hφ) (p : Fin a) :
    multiReduction .maximumf [(1 : Fin 2)] ⟨1, ![a]⟩ src acc h hφ hacc (ix1 p)
      = (Finset.univ : Finset (Fin b)).fold max (FloatOps.ofBits (F := Ideal) φ acc) (fun k => src (ix2 p k)) :=
  (Ideal.multiReduction_maximumf_single src acc h hφ hacc (ix1 p)).trans
    (congrArg (fun f => (Finset.univ : Finset (Fin b)).fold max (FloatOps.ofBits (F := Ideal) φ acc) f)
      (funext fun k => congrArg src (lift_row h p k)))

variable {α : Type}

/-- A vector kept as a column and repeated along the rows reads, at (p, q), its entry p. -/
theorem column_repeat_apply {b' : ℕ} (v : (⟨1, ![a]⟩ : Shape).Idx → α)
    (hc : (⟨1, ![a]⟩ : Shape).ShapeCasts ⟨2, ![a, 1]⟩) (hb : (⟨2, ![a, 1]⟩ : Shape).Broadcasts ⟨2, ![a, b']⟩) (p : Fin a) (q : Fin b') :
    broadcastTo ⟨2, ![a, b']⟩ (shapeCast ⟨2, ![a, 1]⟩ v hc) hb (ix2 p q) = v (ix1 p) :=
  (Cert.LibColumn.broadcastTo_a1_ab_apply _ hb p q).trans (Cert.LibColumn.shapeCast_a_a1_apply v hc p 0)

/-- A 1 × 1 array repeated over a × b reads its one entry everywhere. -/
theorem broadcastTo_11_ab_apply (v : (⟨2, ![1, 1]⟩ : Shape).Idx → α)
    (h : (⟨2, ![1, 1]⟩ : Shape).Broadcasts ⟨2, ![a, b]⟩) (p : Fin a) (q : Fin b) :
    broadcastTo ⟨2, ![a, b]⟩ v h (ix2 p q) = v (ix2 (0 : Fin 1) (0 : Fin 1)) := by
  refine broadcastTo_apply v h (ix2 p q) (ix2 (0 : Fin 1) (0 : Fin 1)) fun ax => ?_
  match ax with
  | ⟨0, _⟩ => rfl
  | ⟨1, _⟩ => rfl

end Cert.LibRowReduce

end
-- ==== Proof.LibRowMin.lean ====
/- The lane MINIMUM along the second axis of a two-axis array, read at row p over the extended reals: min folded over the row
   from the initial word; the host's sum along that axis as the initial value plus the plain sum over the row; and a length-n vector viewed as an a × b array (n = a·b, rows of length b laid end to end), read at
   (p, k) as the vector's entry p·b + k. For any extents and element type. Names no program. -/
import proofs.«105088_j88510686036863_1_alg».proof.Proof.LibRowReduce
import Idealize.ShloMosaic.PureOps.Ideal
import Idealize.ShloMosaic.PureOps.Ideal.Laws
import Idealize.ShloMosaic.Lib.Pipeline.Value
import Idealize.ShloMosaic.Lib.ValueIdx

noncomputable section

namespace Cert.LibRowMin

open Idealize.ShloMosaic Idealize.ShloMosaic.ValueIdx

variable {a b : ℕ}

/-- The lane minimum of row p: min folded over the row from the initial word. -/
theorem rowMin_apply {φ : FTy} (src : FVec Ideal ⟨2, ![a, b]⟩ φ) (acc : BitVec φ.bits)
    (h : (⟨2, ![a, b]⟩ : Shape).Reduces [(1 : Fin 2)] ⟨1, ![a]⟩) (hφ : FKind.Formats φ) (hacc : acc = FKind.minimumf.neutral φ hφ) (p : Fin a) :
    multiReduction .minimumf [(1 : Fin 2)] ⟨1, ![a]⟩ src acc h hφ hacc (ix1 p)
      = (Finset.univ : Finset (Fin b)).fold min (FloatOps.ofBits (F := Ideal) φ acc) (fun k => src (ix2 p k)) := by
  rw [multiReduction_minimumf_eq_fold]
  refine (h.fold_filter_drop_single _ _ src (ix1 p)).trans ?_
  exact congrArg (fun f => (Finset.univ : Finset (Fin b)).fold min (FloatOps.ofBits (F := Ideal) φ acc) f)
    (funext fun k => congrArg src (Cert.LibRowReduce.lift_row h p k))

/-- The lane sum of row p of an f32 array from the zero word, with the side condition on the initial word spelt as an
    equation between the two literal words (the form a printed reduction carries). -/
theorem rowSum_f32 (src : FVec Ideal ⟨2, ![a, b]⟩ .f32)
    (h : (⟨2, ![a, b]⟩ : Shape).Reduces [(1 : Fin 2)] ⟨1, ![a]⟩) (hφ : FKind.Formats .f32)
    (hacc : (0x00000000#32 : BitVec 32) = 0x00000000#32) (p : Fin a) :
    multiReduction .add [(1 : Fin 2)] ⟨1, ![a]⟩ src 0x00000000#32 h hφ hacc (ix1 p) = ∑ k : Fin b, src (ix2 p k) :=
  Cert.LibRowReduce.rowSum_apply src 0x00000000#32 h hφ hacc p

/-- The lane minimum of row p of an f32 array from the word of +∞, the side condition spelt the same way. -/
theorem rowMin_f32 (src : FVec Ideal ⟨2, ![a, b]⟩ .f32)
    (h : (⟨2, ![a, b]⟩ : Shape).Reduces [(1 : Fin 2)] ⟨1, ![a]⟩) (hφ : FKind.Formats .f32)
    (hacc : (0x7F800000#32 : BitVec 32) = 0x7F800000#32) (p : Fin a) :
    multiReduction .minimumf [(1 : Fin 2)] ⟨1, ![a]⟩ src 0x7F800000#32 h hφ hacc (ix1 p)
      = (Finset.univ : Finset (Fin b)).fold min (Ideal.ofBits .f32 0x7F800000#32) (fun k => src (ix2 p k)) :=
  rowMin_apply src 0x7F800000#32 h hφ hacc p

/-- The HOST's sum along the second axis at row p: the initial value plus the plain sum over the row. -/
theorem hostRowSum_apply (x : (⟨2, ![a, b]⟩ : Shape).Idx → EReal) (init : EReal)
    (h' : (⟨2, ![a, b]⟩ : Shape).ReducesTo [(1 : Fin 2)] ⟨1, ![a]⟩) (h : (⟨2, ![a, b]⟩ : Shape).Reduces [(1 : Fin 2)] ⟨1, ![a]⟩)
    (p : Fin a) : Ideal.hostReduceAdd h' x init (ix1 p) = init + ∑ k : Fin b, x (ix2 p k) :=
  (Ideal.hostReduceAdd_single h' h x init (ix1 p)).trans
    (congrArg (fun z => init + z) (Finset.sum_congr rfl fun k _ => congrArg x (Cert.LibRowReduce.lift_row h p k)))

variable {α : Type}

/-- A vector of length n cast to an a × b array reads, at (p, k), the vector's entry q whenever q = p·b + k. -/
theorem shapeCast_n_ab_apply {n : ℕ} (v : (⟨1, ![n]⟩ : Shape).Idx → α)
    (h : (⟨1, ![n]⟩ : Shape).ShapeCasts ⟨2, ![a, b]⟩) (p : Fin a) (k : Fin b) (q : Fin n) (hq : q.val = p.val * b + k.val) :
    shapeCast ⟨2, ![a, b]⟩ v h (ix2 p k) = v (ix1 q) :=
  shapeCast_apply v h _ _ (by
    rw [Shape.rowMajor_val_two, Shape.rowMajor_val_one]
    exact hq)

end Cert.LibRowMin

end
-- ==== Proof.BlockPartial.lean ====
/-
  What one grid step of the kernel adds to its accumulator, read at the ideal instance.

  The step holds a block of 2048 items: its three planes v₁, v₂, v₃ (2048 × 128 each, the middle axis of the block cut
  away). For each row it forms the sum over the 128 lanes of (v₂ − (v₁ + v₃)·½)², the three lane sums of squared
  differences, their square roots, the weighted square of the roots' sum, adds the two, and then sums that column of 2048
  row values into one number. Read entry by entry over the extended reals this is the sum over the block's 2048 rows of the
  item loss of the row's three points — the specification's `item`, term for term, in the same order of operations.
-/
import proofs.«105088_j88510686036863_1_alg».proof.Proof.Gen.KernelIdeal.Skeleton
import proofs.«105088_j88510686036863_1_alg».proof.Proof.Spec
import proofs.«105088_j88510686036863_1_alg».proof.Proof.LibPlaneReads
import proofs.«105088_j88510686036863_1_alg».proof.Proof.LibRowMin

noncomputable section

open Idealize.ShloMosaic Idealize.ShloMosaic.ValueIdx

namespace Cert.KernelIdeal.BlockPartial

open Cert.KernelIdeal Cert.KernelIdeal.Gen Cert.TripleLoss

/-- Row r of a 2048 × 128 plane, as a point. -/
abbrev rowOf (A : FVec Ideal S2048x128 .f32) (r : Fin 2048) : Fin 128 → EReal := fun k => A (ix2 r k)

/-- The lane sum of squared differences of two planes, kept as a column: at row r, the squared distance of the two rows. -/
theorem row_sqDist (A B : FVec Ideal S2048x128 .f32) (hφ : FKind.Formats .f32)
    (hacc : (0x00000000#32 : BitVec 32) = 0x00000000#32) (r : Fin 2048) :
    shapeCast S2048x1 (multiReduction .add [1] S2048 (mulf (subf A B) (subf A B)) 0x00000000#32 reduces_S2048x128_S2048 hφ hacc)
        shapeCasts_S2048_S2048x1 (ix2 r (0 : Fin 1))
      = sqDist (rowOf A r) (rowOf B r) :=
  (Cert.LibColumn.shapeCast_a_a1_apply _ shapeCasts_S2048_S2048x1 r (0 : Fin 1)).trans
    (Cert.LibRowMin.rowSum_f32 _ reduces_S2048x128_S2048 hφ hacc r)

/-- The lane sum of the squared deviation of the second plane from the mean of the other two, kept as a column: at row r,
    the squared distance of the second row from the midpoint of the other two. -/
theorem row_midDev (A B C : FVec Ideal S2048x128 .f32) (hφ : FKind.Formats .f32)
    (hacc : (0x00000000#32 : BitVec 32) = 0x00000000#32) (r : Fin 2048) :
    shapeCast S2048x1 (multiReduction .add [1] S2048
          (mulf (subf B (mulf (addf A C) (broadcast S2048x128 (FloatOps.ofBits .f32 0x3F000000#32))))
            (subf B (mulf (addf A C) (broadcast S2048x128 (FloatOps.ofBits .f32 0x3F000000#32)))))
          0x00000000#32 reduces_S2048x128_S2048 hφ hacc)
        shapeCasts_S2048_S2048x1 (ix2 r (0 : Fin 1))
      = midDev (rowOf A r) (rowOf B r) (rowOf C r) :=
  (Cert.LibColumn.shapeCast_a_a1_apply _ shapeCasts_S2048_S2048x1 r (0 : Fin 1)).trans
    (Cert.LibRowMin.rowSum_f32 _ reduces_S2048x128_S2048 hφ hacc r)

/-- The step's contribution, from the three planes as loaded (each 2048 × 1 × 128): the sum over the rows of the rows' item
    losses. -/
theorem pay3_apply (v3 v5 v7 : Vec Ideal S2048x1x128 .f32) :
    k0_pay3 (F := Ideal) v3 v5 v7 (ix2 (0 : Fin 1) (0 : Fin 1))
      = ∑ r : Fin 2048, item (fun k => v3 (ix3 r (0 : Fin 1) k)) (fun k => v5 (ix3 r (0 : Fin 1) k))
          (fun k => v7 (ix3 r (0 : Fin 1) k)) := by
  unfold k0_pay3
  refine (Cert.LibColumn.shapeCast_a_a1_apply _ shapeCasts_S1_S1x1 (0 : Fin 1) (0 : Fin 1)).trans ?_
  refine (Cert.LibPlaneReads.colSum_f32 _ reduces_S2048x1_S1 (.inl rfl) rfl (0 : Fin 1)).trans ?_
  refine Finset.sum_congr rfl fun r _ => ?_
  have eA : (fun k => v3 (ix3 r (0 : Fin 1) k)) = rowOf (shapeCast S2048x128 v3 shapeCasts_S2048x1x128_S2048x128) r :=
    funext fun k => (Cert.LibPlaneReads.shapeCast_a1b_ab_apply v3 shapeCasts_S2048x1x128_S2048x128 r k).symm
  have eB : (fun k => v5 (ix3 r (0 : Fin 1) k)) = rowOf (shapeCast S2048x128 v5 shapeCasts_S2048x1x128_S2048x128) r :=
    funext fun k => (Cert.LibPlaneReads.shapeCast_a1b_ab_apply v5 shapeCasts_S2048x1x128_S2048x128 r k).symm
  have eC : (fun k => v7 (ix3 r (0 : Fin 1) k)) = rowOf (shapeCast S2048x128 v7 shapeCasts_S2048x1x128_S2048x128) r :=
    funext fun k => (Cert.LibPlaneReads.shapeCast_a1b_ab_apply v7 shapeCasts_S2048x1x128_S2048x128 r k).symm
  rw [eA, eB, eC]
  generalize shapeCast S2048x128 v3 shapeCasts_S2048x1x128_S2048x128 = A
  generalize shapeCast S2048x128 v5 shapeCasts_S2048x1x128_S2048x128 = B
  generalize shapeCast S2048x128 v7 shapeCasts_S2048x1x128_S2048x128 = C
  have hP : (Ideal.sqrt (sqDist (rowOf A r) (rowOf B r)) + Ideal.sqrt (sqDist (rowOf B r) (rowOf C r)))
      + Ideal.sqrt (sqDist (rowOf A r) (rowOf C r)) = perim (rowOf A r) (rowOf B r) (rowOf C r) := rfl
  exact congrArg₂ (· + ·) (row_midDev A B C (.inl rfl) rfl r)
    (congrArg (weight * ·) (congrArg₂ (· * ·)
      ((congrArg₂ (· + ·) (congrArg₂ (· + ·) (congrArg Ideal.sqrt (row_sqDist A B (.inl rfl) rfl r))
        (congrArg Ideal.sqrt (row_sqDist B C (.inl rfl) rfl r))) (congrArg Ideal.sqrt (row_sqDist A C (.inl rfl) rfl r))).trans hP)
      ((congrArg₂ (· + ·) (congrArg₂ (· + ·) (congrArg Ideal.sqrt (row_sqDist A B (.inl rfl) rfl r))
        (congrArg Ideal.sqrt (row_sqDist B C (.inl rfl) rfl r))) (congrArg Ideal.sqrt (row_sqDist A C (.inl rfl) rfl r))).trans hP)))

end Cert.KernelIdeal.BlockPartial

end
-- ==== Proof.AccumValue.lean ====
/-
  The accumulator read at the ideal instance: after step n it is the sum of the block sums of blocks 0 … n of the array,
  and after the last of the 256 steps the total loss of the whole array.

  Over the extended reals the store "accumulator + contribution" is a plain sum, the zero word is 0, and a block's
  contribution is the sum over its 2048 rows of the rows' item losses, the rows being items 2048·t … 2048·t + 2047 of the
  array. The 256 blocks of 2048 items are the 524288 items, each once.
-/
import proofs.«105088_j88510686036863_1_alg».proof.Proof.Accumulate
import proofs.«105088_j88510686036863_1_alg».proof.Proof.BlockPartial

noncomputable section

open Idealize.ShloMosaic Idealize.ShloMosaic.TcCoe Idealize.SL.Sem Idealize.ShloMosaic.ValueIdx

namespace Cert.KernelIdeal.AccumValue

open Cert.KernelIdeal Cert.KernelIdeal.Gen Cert.KernelIdeal.Pieces Cert.KernelIdeal.Accumulate Cert.TripleLoss

/-- The accumulator's update, at its one entry: the old value plus the contribution. -/
theorem pay1_apply (part : FVec Ideal S1x1 .f32) (acc : Vec Ideal S1x1 .f32) (j : S1x1.Idx) :
    k0_pay1 (F := Ideal) part acc j = acc j + part j := by
  unfold k0_pay1
  rw [shapeCast_self]
  rfl

/-- The reset value: zero. -/
theorem pay2_apply (j : S1x1.Idx) : k0_pay2 (F := Ideal) j = 0 := by
  unfold k0_pay2
  rw [shapeCast_self]
  exact Ideal.ofBits_zero_f32

/-- A block's contribution, when the block's entry (r, j, k) is the array's entry (2048·t + r, j, k): the sum of the items
    of block t. -/
theorem blockPart_of (x0 : Vec Ideal S2048x3x128 .f32) (X : (⟨3, ![524288, 3, 128]⟩ : Shape).Idx → EReal) (t : ℕ) (ht : t < 256)
    (hx : ∀ (r : Fin 2048) (j : Fin 3) (k : Fin 128) (b : Fin 524288), b.val = t * 2048 + r.val → x0 (ix3 r j k) = X (ix3 b j k)) :
    blockPart (F := Ideal) x0 (ix2 (0 : Fin 1) (0 : Fin 1)) = blockSum 2048 X t := by
  unfold blockPart
  refine (Cert.KernelIdeal.BlockPartial.pay3_apply _ _ _).trans ?_
  unfold blockSum
  refine Finset.sum_congr rfl fun r _ => ?_
  have hlt : t * 2048 + r.val < 524288 := by have := r.isLt; omega
  rw [itemNat_of_lt X _ hlt]
  unfold itemAt pt
  have e : ∀ (j : Fin 3) (off : Fin 3 → ℕ) (hoff : off = ![0, j.val, 0])
      (inb : ∀ ax, off ax + (![2048, 1, 128] : Fin 3 → ℕ) ax ≤ S2048x3x128.size ax),
      (fun k : Fin 128 => View.ld x0 (Rect.unit off ![2048, 1, 128] inb) (ix3 r (0 : Fin 1) k))
        = fun k => X (ix3 (⟨t * 2048 + r.val, hlt⟩ : Fin 524288) j k) :=
    fun j off hoff inb => funext fun k =>
      (Cert.LibPlaneReads.ld_plane_apply x0 j off hoff inb r k).trans (hx r j k ⟨t * 2048 + r.val, hlt⟩ rfl)
  rw [e 0 ![0, 0, 0] rfl, e 1 ![0, 1, 0] rfl, e 2 ![0, 2, 0] rfl]

variable (m : (ℓ : Loc nD τ sig) → Buf (Elt Ideal) ℓ)

/-- After step n the accumulator is the sum of the block sums of blocks 0 … n. -/
theorem accAfter_apply (c : Dev nD) : ∀ (n : ℕ) (h : n < cfg0.N),
    accAfter m c n h (ix2 (0 : Fin 1) (0 : Fin 1)) = ∑ t ∈ Finset.range (n + 1), blockSum 2048 (V m c main_arg0) t
  | 0, h => by
    show k0_pay1 (F := Ideal) _ _ _ = _
    rw [pay1_apply, pay2_apply, zero_add, Finset.sum_range_one]
    exact blockPart_of _ _ 0 (by decide) fun r j k b hb => iblk_apply m c ⟨0, h⟩ r j k b hb
  | n + 1, h => by
    have hN : cfg0.N = 256 := N_0
    show k0_pay1 (F := Ideal) _ (accAfter m c n _) _ = _
    rw [pay1_apply, accAfter_apply c n, Finset.sum_range_succ _ (n + 1)]
    refine congrArg (_ + ·) ?_
    exact blockPart_of _ _ (n + 1) (by omega) fun r j k b hb => iblk_apply m c ⟨n + 1, h⟩ r j k b hb

/-- After the last step it is the total loss of the array. -/
theorem accAfter_last (c : Dev nD) (h : 255 < cfg0.N) :
    accAfter m c 255 h (ix2 (0 : Fin 1) (0 : Fin 1)) = total (V m c main_arg0) := by
  rw [accAfter_apply]
  exact sum_blocks_eq_total 256 2048 rfl _

end Cert.KernelIdeal.AccumValue

end
-- ==== Proof.RefRead.lean ====
/-
  The reference's result, read one operation at a time at the ideal instance, is the specification's total loss.

  The reference slices the three planes out of the array, forms per item the lane sum of (v₂ − (v₁ + v₃)·½)² and the three
  lane sums of squared differences, their square roots, the weighted square of the roots' sum, then sums each of the two
  per-item vectors over all items and adds the two sums. Every host sum is its initial value, the zero word, plus the plain
  sum; the zero word is 0 on the extended reals.
-/
import proofs.«105088_j88510686036863_1_alg».proof.Proof.Gen.ReferenceIdeal.Read
import proofs.«105088_j88510686036863_1_alg».proof.Proof.Spec
import proofs.«105088_j88510686036863_1_alg».proof.Proof.LibPlaneReads

noncomputable section

open Idealize.ShloMosaic Idealize.ShloMosaic.ValueIdx

namespace Cert.RefRead

open Cert.ReferenceIdeal Cert.ReferenceIdeal.Read Cert.TripleLoss

/-- The array's contents, as the reference's stages take them. -/
abbrev Arr : Type := (⟨S524288x3x128, .f32⟩ : BufTy).Contents (Elt Ideal)

/-- Item b with the reduced lane k put back is entry (b, k) of the per-lane array. -/
theorem lane_index (b : Fin 524288) (k : Fin 128) : idx_main_v11 (ix1 b) k = ix2 b k :=
  funext fun a => Fin.ext (by match a with | ⟨0, _⟩ => rfl | ⟨1, _⟩ => rfl)

/-- The three planes: the slice at middle coordinate j, its unit axis dropped, reads entry (b, j, k) of the array. -/
theorem plane0 (x : Arr) (b : Fin 524288) (k : Fin 128) : val_main_v1 (F := Ideal) x (ix2 b k) = x (ix3 b (0 : Fin 3) k) := by
  rw [val_main_v1_apply, val_main_v0_apply]
  refine congrArg x (funext fun a => Fin.ext ?_)
  have hk := k.isLt
  match a with
  | ⟨0, _⟩ => show (b.val * 128 + k.val) / 128 = b.val; omega
  | ⟨1, _⟩ => rfl
  | ⟨2, _⟩ => show (b.val * 128 + k.val) % 128 = k.val; omega

theorem plane1 (x : Arr) (b : Fin 524288) (k : Fin 128) : val_main_v3 (F := Ideal) x (ix2 b k) = x (ix3 b (1 : Fin 3) k) := by
  rw [val_main_v3_apply, val_main_v2_apply]
  refine congrArg x (funext fun a => Fin.ext ?_)
  have hk := k.isLt
  match a with
  | ⟨0, _⟩ => show (b.val * 128 + k.val) / 128 = b.val; omega
  | ⟨1, _⟩ => rfl
  | ⟨2, _⟩ => show (b.val * 128 + k.val) % 128 = k.val; omega

theorem plane2 (x : Arr) (b : Fin 524288) (k : Fin 128) : val_main_v5 (F := Ideal) x (ix2 b k) = x (ix3 b (2 : Fin 3) k) := by
  rw [val_main_v5_apply, val_main_v4_apply]
  refine congrArg x (funext fun a => Fin.ext ?_)
  have hk := k.isLt
  match a with
  | ⟨0, _⟩ => show (b.val * 128 + k.val) / 128 = b.val; omega
  | ⟨1, _⟩ => rfl
  | ⟨2, _⟩ => show (b.val * 128 + k.val) % 128 = k.val; omega

/-- The zero word the host sums start from is 0. -/
theorem zero_word : FloatOps.ofBits (F := Ideal) .f32 0x00000000#32 = (0 : EReal) := Ideal.ofBits_zero_f32

/-- Item b's squared distance of v₂ from the midpoint of v₁ and v₃. -/
theorem midDev_at (x : Arr) (b : Fin 524288) :
    val_main_v11 (F := Ideal) x (ix1 b) = midDev (pt x b 0) (pt x b 1) (pt x b 2) := by
  rw [val_main_v11_apply, val_main_cst_0_apply, zero_word, zero_add]
  unfold midDev
  refine Finset.sum_congr rfl fun k _ => ?_
  rw [lane_index, val_main_v10_apply, val_main_v9_apply, val_main_v8_apply, val_main_v6_apply, val_main_v7_apply,
    val_main_cst_apply, plane0, plane1, plane2]
  rfl

/-- Item b's three squared side lengths. -/
theorem sqDist12_at (x : Arr) (b : Fin 524288) : val_main_v14 (F := Ideal) x (ix1 b) = sqDist (pt x b 0) (pt x b 1) := by
  rw [val_main_v14_apply, val_main_cst_1_apply, zero_word, zero_add]
  unfold sqDist
  refine Finset.sum_congr rfl fun k _ => ?_
  rw [show idx_main_v14 (ix1 b) k = ix2 b k from lane_index b k, val_main_v13_apply, val_main_v12_apply, plane0, plane1]
  rfl

theorem sqDist23_at (x : Arr) (b : Fin 524288) : val_main_v18 (F := Ideal) x (ix1 b) = sqDist (pt x b 1) (pt x b 2) := by
  rw [val_main_v18_apply, val_main_cst_2_apply, zero_word, zero_add]
  unfold sqDist
  refine Finset.sum_congr rfl fun k _ => ?_
  rw [show idx_main_v18 (ix1 b) k = ix2 b k from lane_index b k, val_main_v17_apply, val_main_v16_apply, plane1, plane2]
  rfl

theorem sqDist13_at (x : Arr) (b : Fin 524288) : val_main_v22 (F := Ideal) x (ix1 b) = sqDist (pt x b 0) (pt x b 2) := by
  rw [val_main_v22_apply, val_main_cst_3_apply, zero_word, zero_add]
  unfold sqDist
  refine Finset.sum_congr rfl fun k _ => ?_
  rw [show idx_main_v22 (ix1 b) k = ix2 b k from lane_index b k, val_main_v21_apply, val_main_v20_apply, plane0, plane2]
  rfl

/-- Item b's weighted squared perimeter. -/
theorem spread_at (x : Arr) (b : Fin 524288) :
    val_main_v28 (F := Ideal) x (ix1 b) = spread (pt x b 0) (pt x b 1) (pt x b 2) := by
  rw [val_main_v28_apply, val_main_v27_apply, val_main_cst_4_apply, val_main_v26_apply, val_main_v25_apply, val_main_v24_apply,
    val_main_v15_apply, val_main_v19_apply, val_main_v23_apply, sqDist12_at, sqDist23_at, sqDist13_at]
  rfl

/-- The reference's result is the total loss of its argument. -/
theorem result_eq_total (x : Arr) : val_main_v31 (F := Ideal) x ix0 = total x := by
  rw [val_main_v31_apply, val_main_v29_apply, val_main_v30_apply, val_main_cst_5_apply, val_main_cst_6_apply, zero_word,
    zero_add, zero_add, Cert.LibPlaneReads.sum_idx1, Cert.LibPlaneReads.sum_idx1]
  unfold total
  exact congrArg₂ (· + ·) (Finset.sum_congr rfl fun b _ => midDev_at x b) (Finset.sum_congr rfl fun b _ => spread_at x b)

end Cert.RefRead

end
-- ==== Proof.lean ====
/-
  A loss over triples of points. The argument is an array [524288, 3, 128]: 524288 items, each a triple (v₁, v₂, v₃) of
  points of a 128-dimensional space. An item's loss is the squared distance of v₂ from the midpoint of v₁ and v₃ plus a fixed
  weight times the squared perimeter ‖v₁ − v₂‖ + ‖v₂ − v₃‖ + ‖v₁ − v₃‖ of the triangle; the result is one number, the sum of the
  items' losses.

  The kernel walks the items in 256 blocks of 2048. A step forms its block's 2048 item losses, sums them, and adds that sum
  into a one-entry accumulator that the first step resets to zero; the last step copies the accumulator out, and the host views
  the 1 × 1 result as a scalar. The reference forms the two summands of every item over the whole array, sums each over all
  items from zero, and adds the two sums.

  Read over the extended reals both are the sum over all items of the item's loss: the same operations on the same literal
  words per item (one half, the weight's binary32 word, the zero word, which is 0), and then only a regrouping and reordering
  of one finite sum, which addition's commutativity and associativity allow whatever the summands are. So the precondition
  (finite inputs) is not used. The idealization rewrote nothing, and the three frames are the programs' generated runs.
-/
import proofs.«105088_j88510686036863_1_alg».proof.Defs
import proofs.«105088_j88510686036863_1_alg».proof.Proof.Gen.Kernel
import proofs.«105088_j88510686036863_1_alg».proof.Proof.Gen.Kernel.Frame
import proofs.«105088_j88510686036863_1_alg».proof.Proof.Gen.KernelIdeal
import proofs.«105088_j88510686036863_1_alg».proof.Proof.Gen.KernelIdeal.Frame
import proofs.«105088_j88510686036863_1_alg».proof.Proof.Gen.ReferenceIdeal
import proofs.«105088_j88510686036863_1_alg».proof.Proof.Gen.ReferenceIdeal.Run
import proofs.«105088_j88510686036863_1_alg».proof.Proof.Gen.Pre_finite_inputs
import proofs.«105088_j88510686036863_1_alg».proof.Proof.KernelRun
import proofs.«105088_j88510686036863_1_alg».proof.Proof.AccumValue
import proofs.«105088_j88510686036863_1_alg».proof.Proof.RefRead
import Idealize.ShloMosaic.Adequacy
import Idealize.ShloMosaic.Init

noncomputable section

namespace Cert.Proof

open Idealize.ShloMosaic Idealize.ShloMosaic.TcCoe Idealize.SL.Sem Idealize.ShloMosaic.ValueIdx

/-- Each program runs to the end without a fault and leaves its argument as it was. -/
theorem frame_kernel : Cert.frame_Kernel := fun m ρ _ => Cert.Kernel.Gen.frame m ρ
theorem frame_kernelIdeal : Cert.frame_KernelIdeal := fun m ρ _ => Cert.KernelIdeal.Gen.frame m ρ
theorem frame_reference : Cert.frame_ReferenceIdeal := fun m ρ _ =>
  (θ_run Cert.ReferenceIdeal.defs _ _).mono (fun _ h c => (h c).2) (Cert.ReferenceIdeal.Value.run (F := Ideal) m ρ)

/-- The idealized kernel is the kernel's own text: no operation was rewritten. -/
theorem preserves : Cert.preserves_Kernel_KernelIdeal := trivial

/-- The kernel's scalar result — the accumulator after the last step, viewed as a scalar — is the total loss of its argument. -/
theorem kernel_result (m : (ℓ : Loc Cert.KernelIdeal.nD Cert.KernelIdeal.τ Cert.KernelIdeal.sig) → Buf (Elt Ideal) ℓ)
    (c : Dev Cert.KernelIdeal.nD) :
    shapeCast Cert.KernelIdeal.S_ (Cert.KernelIdeal.KernelRun.lastAcc m c) Cert.KernelIdeal.Facts₀.shapeCasts_S1x1_S_
      = fun _ => Cert.TripleLoss.total (m ((c.tc : Thread Cert.KernelIdeal.nD Cert.KernelIdeal.τ).loc Cert.KernelIdeal.main_arg0)) := by
  funext j
  rw [Cert.LibPlaneReads.shapeCast_11_scalar_apply]
  exact Cert.KernelIdeal.AccumValue.accAfter_last m c _

/-- From arguments that agree, both idealized programs end with the total loss of the argument as their result. -/
theorem algebraic : Cert.algebraic_KernelIdeal_ReferenceIdeal := by
  intro m ρ m' ρ' _ hagree
  refine ⟨fun c => fun _ => Cert.TripleLoss.total
    (m ((c.tc : Thread Cert.KernelIdeal.nD Cert.KernelIdeal.τ).loc Cert.KernelIdeal.main_arg0)), ?_, ?_⟩
  · exact (θ_run Cert.KernelIdeal.defs _ _).mono (fun _ h c => ⟨(h c).1.trans (kernel_result m c), (h c).2⟩)
      (Cert.KernelIdeal.KernelRun.run (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v31_eq, hagree c]
    funext j
    rw [eq_ix0 j]
    exact Cert.RefRead.result_eq_total _

theorem claim : Cert.Claim := ⟨Cert.Kernel.Gen.facts, Cert.KernelIdeal.Gen.facts, Cert.ReferenceIdeal.Gen.facts, Cert.Pre_finite_inputs.Gen.facts,
  frame_kernel, frame_kernelIdeal, frame_reference, preserves, algebraic⟩

end Cert.Proof

end
